-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : IVec S4096x4096 32) (main_arg2 : FVec F S4096 .f32) (main_arg3 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096, .bf16⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S4096x4096, .bf16⟩
  | .hbm, ⟨14, _⟩ => ⟨S1x4096, .f32⟩
  | .hbm, ⟨15, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S4096_S4096x4096x1_S4096x4096_n_0_n_n_0_2_1_wf : GatherDims.WF S4096 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x4096.size a
  hwx0_0 : ∀ i : grid0.Coords, EltTy.bits .f32 = 32 ∨ (Rect.block (s := S2048x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S2048x4096, .f32⟩
  | .hbm, ⟨14, _⟩ => ⟨S1x4096, .f32⟩
  | .hbm, ⟨15, _⟩ => ⟨S2048x4096, .f32⟩
  | .hbm, ⟨16, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  gather_S4096_S4096x4096x1_S4096x4096_n_0_n_n_0_2_1_wf : GatherDims.WF S4096 S4096x4096x1 S4096x4096 [] [0] [] [0] [] 2 ![1]
  dot_S2048x4096_S4096x4096_S2048x4096_1_0_0_1_n_n_wf : DotDims.WF S2048x4096 S4096x4096 S2048x4096 [1] [0] [0] [1] [] []

variable [Facts₀]

def gather_S4096_S4096x4096x1_S4096x4096_n_0_n_n_0_2_1 : GatherDims S4096 S4096x4096x1 S4096x4096 where
  offsetDims := []
  collapsedSliceDims := [0]
  operandBatchingDims := []
  startIndicesBatchingDims := []
  startIndexMap := [0]
  indexVectorDim := 2
  sliceSizes := ![1]
  wf := gather_S4096_S4096x4096x1_S4096x4096_n_0_n_n_0_2_1_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Pieces.lean ====
/-
  What each control case of the kernel body leaves behind, as a pure term of the blocks it loaded.

  The body keeps a running block `acc` in a scratch buffer across the innermost grid axis `k`:
    * at `k = 0` it first stores the zero block, then leaves `0 + a·b` in the scratch;
    * at `0 < k` it leaves `acc + a·b`, over what the point before left;
    * at `k = 3` it moreover stores `(acc + a·b) + bias` (the bias row repeated down the rows) into the output block.
  Here `a` is the activation block, `b` the weight block, and `a·b` their matrix product into a zero accumulator.
-/
import proofs.«120063_j59923383714208_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem origin : (![0, 0] : Fin 2 → Nat) = fun _ => 0 := funext fun a => by fin_cases a <;> rfl

variable (c : Dev nD) (i : grid0.Coords)
  (arg3 : Memref sig .tc .vmem S1024x1024 .f32) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec F S1024x1024 .f32) (x1 : Vec F S1024x1024 .bf16) (x2 : Vec F S1x1024 .f32) (xs0 : Vec F S1024x1024 .f32)

/-- A middle point (`0 < k < 3`) leaves `acc + a·b` in the scratch. -/
theorem scratch_mid (hc0 : ¬cond0_0 i) (hc1 : ¬cond0_1 i) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread, View.ld_unit_zero (S := S1024x1024) origin]

/-- The last point (`k = 3`) leaves `acc + a·b` in the scratch too. -/
theorem scratch_last (hc0 : ¬cond0_0 i) (hc1 : cond0_1 i) :
    sout0_C_0 c i arg3 harg3 arg4 harg4 arg5 harg5 arg6 harg6 arg7 harg7 hc0 hc1 x0 x1 x2 xs0 = k0_pay2 x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x1024) origin]

/-- … and stores `(acc + a·b) + bias` into the output block. -/
theorem out_last (hc0 : ¬cond0_0 i) (hc1 : cond0_1 i) :
    out0_C_3 c i arg3 harg3 arg4 harg4 arg5 harg5 arg6 harg6 arg7 harg7 hc0 hc1 x0 x1 x2 xs0 = k0_pay3 x2 (k0_pay2 x0 xs0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

/-- The first point (`k = 0`) stores the zero block and leaves `0 + a·b` in the scratch. -/
theorem scratch_first (hc0 : cond0_0 i) (hc1 : ¬cond0_1 i) :
    sout0_A_0 c i arg3 harg3 arg4 harg4 arg5 harg5 arg6 harg6 arg7 harg7 hc0 hc1 x0 x1 x2 = k0_pay2 x0 (k0_pay1 (F := F)) x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

end Cert.KernelIdeal.Found

end
-- ==== Proof.Payload.lean ====
/-
  The kernel body's three stored values, read at one index over the extended reals.

  With `a` the activation block, `b` the weight block and `acc` the running block:
    * the reset value is `0` everywhere;
    * the accumulation step at `(p, q)` is `acc (p, q) + ∑ j, a (p, j) · b (j, q)` — the matrix product into a zero
      accumulator is the plain sum over the contracted axis, and rounding the activations to bf16 is the identity here;
    * the final value at `(p, q)` is `acc (p, q) + bias (0, q)`: the bias row is repeated down the rows.
-/
import proofs.«120063_j59923383714208_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The block product's dimension numbers: rows of the left times columns of the right, one contracted axis of 1024. -/
abbrev D : DotDims S1024x1024 S1024x1024 S1024x1024 := dot_S1024x1024_S1024x1024_S1024x1024_1_0_0_1_n_n

/-- The reset block is zero everywhere. -/
theorem reset_apply (y : S1024x1024.Idx) : k0_pay1 (F := Ideal) y = 0 := by
  unfold k0_pay1
  simp only [shapeCast_self]
  exact Ideal.ofBits_zero_f32

theorem lhs_row (y : S1024x1024.Idx) (k : D.contr.Idx) : (D.lhsIdx y k 0).val = (y 0).val := by
  unfold DotDims.lhsIdx
  rw [dif_neg (show ¬(0 : Fin S1024x1024.rank) ∈ D.lhsBatch by decide),
    dif_pos (show (0 : Fin S1024x1024.rank) ∈ D.lhsNonContracting by decide)]
  rfl

theorem rhs_col (y : S1024x1024.Idx) (k : D.contr.Idx) : (D.rhsIdx y k 1).val = (y 1).val := by
  unfold DotDims.rhsIdx
  rw [dif_neg (show ¬(1 : Fin S1024x1024.rank) ∈ D.rhsBatch by decide),
    dif_pos (show (1 : Fin S1024x1024.rank) ∈ D.rhsNonContracting by decide)]
  rfl

/-- The block product into a zero accumulator, at `(p, q)`: the sum over the contracted axis. -/
theorem product_apply (a : FVec Ideal S1024x1024 .bf16) (b : FVec Ideal S1024x1024 .bf16) (p q : Fin 1024) :
    matmul D none a b (constant S1024x1024 .f32 0x00000000#32) (ix2 p q) = ∑ j : Fin 1024, a (ix2 p j) * b (ix2 j q) := by
  refine (Ideal.matmul_constant_zero_apply D none a b (ix2 p q)).trans ?_
  rw [← Equiv.sum_comp (contrEquiv1 D 1024 rfl rfl).symm]
  refine Finset.sum_congr rfl fun j _ => ?_
  have hk := contrEquiv1_symm_val D 1024 rfl rfl j
  have el : D.lhsIdx (ix2 p q) ((contrEquiv1 D 1024 rfl rfl).symm j) = ix2 p j := funext fun d => Fin.ext (by
    match d with
    | ⟨0, _⟩ => exact lhs_row _ _
    | ⟨1, _⟩ => exact (D.lhsIdx_val_of_single rfl _ _).trans hk)
  have er : D.rhsIdx (ix2 p q) ((contrEquiv1 D 1024 rfl rfl).symm j) = ix2 j q := funext fun d => Fin.ext (by
    match d with
    | ⟨0, _⟩ => exact (D.rhsIdx_val_of_single rfl _ _).trans hk
    | ⟨1, _⟩ => exact rhs_col _ _)
  rw [el, er]

/-- The accumulation step at `(p, q)`. -/
theorem step_apply (a : FVec Ideal S1024x1024 .f32) (acc : FVec Ideal S1024x1024 .f32) (b : FVec Ideal S1024x1024 .bf16)
    (p q : Fin 1024) :
    k0_pay2 a acc b (ix2 p q) = acc (ix2 p q) + ∑ j : Fin 1024, a (ix2 p j) * b (ix2 j q) := by
  unfold k0_pay2
  simp only [shapeCast_self]
  refine (addf_apply _ _ _).trans ?_
  exact congrArg (acc (ix2 p q) + ·) (product_apply (truncf .bf16 a bitsLt_bf16_f32) b p q)

/-- The final value at `(p, q)`. -/
theorem final_apply (bias : FVec Ideal S1x1024 .f32) (acc : FVec Ideal S1024x1024 .f32) (p q : Fin 1024) :
    k0_pay3 bias acc (ix2 p q) = acc (ix2 p q) + bias (ix2 (0 : Fin 1) q) := by
  unfold k0_pay3
  simp only [shapeCast_self]
  refine (addf_apply _ _ _).trans ?_
  refine congrArg (acc (ix2 p q) + ·) ?_
  exact broadcastTo_apply bias broadcasts_S1x1024_S1024x1024 (ix2 p q) (ix2 (0 : Fin 1) q) (fun d => by
    match d with
    | ⟨0, _⟩ => show (0 : ℕ) = if (1 : ℕ) = 1 then 0 else p.val; rw [if_pos rfl]
    | ⟨1, _⟩ => show q.val = if (1024 : ℕ) = 1 then 0 else q.val; rw [if_neg (by decide)])

end Cert.KernelIdeal.Payload

end
-- ==== Proof.Blocks.lean ====
/-
  Each window's block at a grid point, as a slice of the array the window stages.

  The grid is (2, 4, 4) in row-major order: point `t` has coordinates `(i, j, k) = (t / 16, t / 4 % 4, t % 4)`.
    * the activation block at `t` is rows `[1024 i, +1024)` and columns `[1024 k, +1024)` of the activations;
    * the weight block is rows `[1024 k, +1024)` and columns `[1024 j, +1024)` of the gathered weights;
    * the bias block is columns `[1024 j, +1024)` of the bias, laid out as a single row.
  The weights are written before the kernel by the host's gather (from the table rounded to bf16, the identity over the
  extended reals), the bias row by a reshape of the bias.
-/
import proofs.«120063_j59923383714208_2_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

theorem lt32 (t : Fin cfg0.N) : t.val < 32 := lt_of_lt_of_eq t.isLt (show cfg0.N = 32 from N_0)

/-- The windows' block indices at point `t`, decided over the 32 points. -/
theorem act_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem wt_index : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem bias_index : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem out_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- The activation block at `t`, entry `(p, j)`. -/
theorem act_block (c : Dev nD) (t : Fin cfg0.N) (p j : Fin 1024) :
    (iblk m c 0 t : Vec Ideal S1024x1024 .f32) (ix2 p j)
      = m ((c : Thread nD τ).loc main_arg0) (ix2 (⟨1024 * (t.val / 16) + p.val, by have := lt32 t; omega⟩ : Fin 2048)
          (⟨1024 * (t.val % 4) + j.val, by omega⟩ : Fin 4096)) := by
  unfold iblk
  rw [View.read_apply]
  show V m c main_arg0 _ = _
  rw [V_main_arg0]
  refine congrArg _ (funext fun a => Fin.ext ?_)
  match a with
  | ⟨0, _⟩ => show win0_0.index t 0 * 1024 + 1 * p.val = 1024 * (t.val / 16) + p.val; rw [(act_index t).1]; omega
  | ⟨1, _⟩ => show win0_0.index t 1 * 1024 + 1 * j.val = 1024 * (t.val % 4) + j.val; rw [(act_index t).2]; omega

/-- The weight block at `t`, entry `(j, q)`, of the array the host's gather wrote. -/
theorem wt_block (c : Dev nD) (t : Fin cfg0.N) (j q : Fin 1024) :
    (iblk m c 1 t : Vec Ideal S1024x1024 .bf16) (ix2 j q)
      = V m c main_v7 (ix2 (⟨1024 * (t.val % 4) + j.val, by omega⟩ : Fin 4096)
          (⟨1024 * (t.val / 4 % 4) + q.val, by omega⟩ : Fin 4096)) := by
  unfold iblk
  rw [View.read_apply]
  show V m c main_v7 _ = _
  refine congrArg _ (funext fun a => Fin.ext ?_)
  match a with
  | ⟨0, _⟩ => show win0_1.index t 0 * 1024 + 1 * j.val = 1024 * (t.val % 4) + j.val; rw [(wt_index t).1]; omega
  | ⟨1, _⟩ => show win0_1.index t 1 * 1024 + 1 * q.val = 1024 * (t.val / 4 % 4) + q.val; rw [(wt_index t).2]; omega

/-- The bias block at `t`, entry `(0, q)`, of the row the host's reshape wrote. -/
theorem bias_block (c : Dev nD) (t : Fin cfg0.N) (q : Fin 1024) :
    (iblk m c 2 t : Vec Ideal S1x1024 .f32) (ix2 (0 : Fin 1) q)
      = V m c main_v8 (ix2 (0 : Fin 1) (⟨1024 * (t.val / 4 % 4) + q.val, by omega⟩ : Fin 4096)) := by
  unfold iblk
  rw [View.read_apply]
  show V m c main_v8 _ = _
  refine congrArg _ (funext fun a => Fin.ext ?_)
  match a with
  | ⟨0, _⟩ => show win0_2.index t 0 * 1 + 1 * 0 = 0; rw [(bias_index t).1]
  | ⟨1, _⟩ => show win0_2.index t 1 * 1024 + 1 * q.val = 1024 * (t.val / 4 % 4) + q.val; rw [(bias_index t).2]; omega

/-- The weights as the host writes them: the gather, by the normalised indices, from the table rounded to bf16. -/
theorem weights_eq (c : Dev nD) :
    (V m c main_v7 : S4096x4096.Idx → EReal)
      = Host.gather gather_S4096_S4096x4096x1_S4096x4096_n_0_n_n_0_2_1
          (truncf (F := Ideal) .bf16 (m ((c : Thread nD τ).loc main_arg2)) bitsLt_bf16_f32)
          (broadcastInDim S4096x4096x1 ![0, 1] bcast_S4096x4096_S4096x4096x1_0_1
            (select (cmpi .slt (m ((c : Thread nD τ).loc main_arg1)) (broadcastInDim S4096x4096 ![] bcast_S_S4096x4096 (constantI S_ 32 0#32)))
              (addi (m ((c : Thread nD τ).loc main_arg1)) (broadcastInDim S4096x4096 ![] bcast_S_S4096x4096 (constantI S_ 32 4096#32)))
              (m ((c : Thread nD τ).loc main_arg1)))) := by
  dsimp only [V, hostOps0]
  after_results <;> rfl

/-- The bias row as the host writes it: the bias reshaped to one row. -/
theorem bias_row_eq (c : Dev nD) :
    (V m c main_v8 : S1x4096.Idx → EReal) = shapeCast S1x4096 (m ((c : Thread nD τ).loc main_arg3)) shapeCasts_S4096_S1x4096 := by
  dsimp only [V, hostOps0]
  after_results <;> rfl

end Cert.KernelIdeal.Blocks

end
-- ==== Proof.BlockSum.lean ====
/-
  Splitting a sum over 4096 terms into four consecutive blocks of 1024, in any commutative additive monoid
  (in particular the extended reals, where addition is associative and commutative at the infinities too).
-/
import Mathlib.Algebra.BigOperators.Fin
import Mathlib.Logic.Equiv.Fin.Basic

namespace Cert.BlockSum

open Finset

/-- The index `1024 * k + j` of the `j`-th term of the `k`-th block. -/
def blockIdx (k : Fin 4) (j : Fin 1024) : Fin 4096 := ⟨1024 * k.val + j.val, by omega⟩

@[simp] theorem blockIdx_val (k : Fin 4) (j : Fin 1024) : (blockIdx k j).val = 1024 * k.val + j.val := rfl

/-- A sum over `Fin 4096` is the sum over the four blocks of the sums over each block. -/
theorem sum_blocks {M : Type*} [AddCommMonoid M] (f : Fin 4096 → M) :
    ∑ i : Fin 4096, f i = ∑ k : Fin 4, ∑ j : Fin 1024, f (blockIdx k j) := by
  rw [← Fintype.sum_prod_type']
  refine (Fintype.sum_equiv (finProdFinEquiv (m := 4) (n := 1024)) _ _ ?_).symm
  rintro ⟨k, j⟩
  refine congrArg f (Fin.ext ?_)
  simp [finProdFinEquiv, blockIdx, Nat.add_comm]

end Cert.BlockSum
-- ==== Proof.Spec.lean ====
/-
  The function both programs compute, over the extended reals:

      result (r, col) = (∑ l < 4096, X (r, l) · W (l, col)) + B (col)

  for activations `X` (2048 × 4096), weights `W` (4096 × 4096) and a bias `B` (4096); and the same entry written as
  the sum of four shares, share `k` being the part of the inner product over `l ∈ [1024 k, 1024 k + 1024)`.
  A grid point `n = 16 i + 4 j + k` of the (2, 4, 4) grid adds share `k` of the entries of row block `i` and column
  block `j`: that is its addend.
-/
import Idealize.ShloMosaic.PureOps.Ideal
import Idealize.ShloMosaic.Lib.ValueIdx
import proofs.«120063_j59923383714208_2_alg».proof.Proof.BlockSum

noncomputable section

open Idealize.ShloMosaic Idealize.ShloMosaic.ValueIdx

namespace Cert.Spec

open Cert.BlockSum

abbrev SX : Shape := ⟨2, ![2048, 4096]⟩
abbrev SW : Shape := ⟨2, ![4096, 4096]⟩
abbrev SB : Shape := ⟨1, ![4096]⟩

variable (X : SX.Idx → EReal) (W : SW.Idx → EReal) (B : SB.Idx → EReal)

/-- One entry of the result. -/
def entry (r : Fin 2048) (col : Fin 4096) : EReal :=
  (∑ l : Fin 4096, X (ix2 r l) * W (ix2 l col)) + B (ix1 col)

/-- The whole result array. -/
def result : SX.Idx → EReal := fun i => entry X W B ⟨(i 0).val, idx2_lt0 i⟩ ⟨(i 1).val, idx2_lt1 i⟩

/-- Share `k` of the inner product of row `r` and column `col`. -/
def share (k : Fin 4) (r : Fin 2048) (col : Fin 4096) : EReal :=
  ∑ j : Fin 1024, X (ix2 r (blockIdx k j)) * W (ix2 (blockIdx k j) col)

/-- An entry is the sum of its four shares, plus the bias. -/
theorem entry_eq_shares (r : Fin 2048) (col : Fin 4096) :
    entry X W B r col = (∑ k : Fin 4, share X W k r col) + B (ix1 col) := by
  unfold entry share
  rw [sum_blocks (fun l => X (ix2 r l) * W (ix2 l col))]

/-- What grid point `n` adds to entry `(p, q)` of its block (zero past the grid, where it is never used). -/
def addend (n : ℕ) (p q : Fin 1024) : EReal :=
  if h : n < 32 then
    share X W ⟨n % 4, by omega⟩ ⟨1024 * (n / 16) + p.val, by omega⟩ ⟨1024 * (n / 4 % 4) + q.val, by omega⟩
  else 0

/-- A block product is its point's addend: when `a` is rows `[1024 i, +1024)`, columns `[1024 k, +1024)` of `X` and `b`
    rows `[1024 k, +1024)`, columns `[1024 j, +1024)` of `W`, for `n = 16 i + 4 j + k`, the product `a · b` at `(p, q)` is share
    `k` of entry `(1024 i + p, 1024 j + q)`. -/
theorem product_eq_addend (n : ℕ) (hn : n < 32) (a b : (⟨2, ![1024, 1024]⟩ : Shape).Idx → EReal)
    (ha : ∀ p j : Fin 1024, a (ix2 p j)
      = X (ix2 (⟨1024 * (n / 16) + p.val, by omega⟩ : Fin 2048) (⟨1024 * (n % 4) + j.val, by omega⟩ : Fin 4096)))
    (hb : ∀ j q : Fin 1024, b (ix2 j q)
      = W (ix2 (⟨1024 * (n % 4) + j.val, by omega⟩ : Fin 4096) (⟨1024 * (n / 4 % 4) + q.val, by omega⟩ : Fin 4096)))
    (p q : Fin 1024) :
    ∑ j : Fin 1024, a (ix2 p j) * b (ix2 j q) = addend X W n p q := by
  unfold addend
  rw [dif_pos hn]
  unfold share
  refine Finset.sum_congr rfl fun j _ => ?_
  rw [ha, hb]
  rfl

/-- The four points `4 g, …, 4 g + 3` of one run together add the four shares of the run's entries. -/
theorem sum_addends (t : ℕ) (ht : t < 32) (p q : Fin 1024) :
    ∑ s ∈ Finset.range 4, addend X W (4 * (t / 4) + s) p q
      = ∑ k : Fin 4, share X W k ⟨1024 * (t / 16) + p.val, by omega⟩ ⟨1024 * (t / 4 % 4) + q.val, by omega⟩ := by
  rw [Finset.sum_range]
  refine Finset.sum_congr rfl fun k _ => ?_
  have hk := k.isLt
  unfold addend
  rw [dif_pos (by omega)]
  congr 1
  · exact Fin.ext (by show (4 * (t / 4) + k.val) % 4 = k.val; omega)
  · exact Fin.ext (by show 1024 * ((4 * (t / 4) + k.val) / 16) + p.val = 1024 * (t / 16) + p.val; omega)
  · exact Fin.ext (by show 1024 * ((4 * (t / 4) + k.val) / 4 % 4) + q.val = 1024 * (t / 4 % 4) + q.val; omega)

end Cert.Spec

end
-- ==== Proof.Accum.lean ====
/-
  The kernel's result array after the run is `Spec.result` of the activations, the gathered weights and the bias.

  Along the innermost grid axis the scratch block is a running sum: after point `t` of a run `4 g, …, 4 g + 3` it holds,
  at `(p, q)`, zero plus the addends of the points `4 g, …, t` (the first point stores zero and adds its block product,
  each later point adds its own to what the point before left). The run's last point writes `scratch + bias` back, so
  the block it writes holds the four shares of each of its entries plus the bias: the entry itself. Each entry of the
  array lies in the block of exactly such a point, the one of its row block and column block with `k = 3`.
-/
import proofs.«120063_j59923383714208_2_alg».proof.Proof.Gen.KernelIdeal.Value
import proofs.«120063_j59923383714208_2_alg».proof.Proof.Pieces
import proofs.«120063_j59923383714208_2_alg».proof.Proof.Payload
import proofs.«120063_j59923383714208_2_alg».proof.Proof.Blocks
import proofs.«120063_j59923383714208_2_alg».proof.Proof.Spec
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Spec

variable (m : (ℓ : Loc nD τ sig) → Buf (Elt Ideal) ℓ) (ρ : Dev nD → PrngReg)

/-- The three whole arrays the kernel reads: the activations, the weights the host gathered, the bias. -/
abbrev acts (c : Dev nD) : SX.Idx → EReal := m ((c : Thread nD τ).loc main_arg0)
abbrev wts (c : Dev nD) : SW.Idx → EReal := V m c main_v7
abbrev biasv (c : Dev nD) : SB.Idx → EReal := m ((c : Thread nD τ).loc main_arg3)

/-- Point `n`'s addend as a function of the block's index. -/
def M (c : Dev nD) (n : ℕ) : S1024x1024.Idx → EReal :=
  fun y => addend (acts m c) (wts m c) n ⟨(y 0).val, idx2_lt0 y⟩ ⟨(y 1).val, idx2_lt1 y⟩

/-- The accumulation step at point `t` adds the point's addend to the running block. -/
theorem step_at (c : Dev nD) (t : Fin cfg0.N) (acc : Vec Ideal S1024x1024 .f32) (y : S1024x1024.Idx) :
    k0_pay2 (iblk m c 0 t) acc (iblk m c 1 t) y = acc y + M m c t.val y := by
  obtain ⟨p, q, rfl⟩ : ∃ (p q : Fin 1024), y = ix2 p q := ⟨y 0, y 1, eq_ix2 y⟩
  refine (Payload.step_apply (iblk m c 0 t) acc (iblk m c 1 t) p q).trans ?_
  exact congrArg (acc (ix2 p q) + ·) (product_eq_addend (acts m c) (wts m c) t.val (Blocks.lt32 t) (iblk m c 0 t) (iblk m c 1 t)
    (fun p j => Blocks.act_block m c t p j) (fun j q => Blocks.wt_block m c t j q) p q)

/-- THE RUNNING SUM: the scratch after point `t` is zero plus the addends of its run's points up to `t`. -/
theorem scratch_after (c : Dev nD) (t : Fin cfg0.N) (y : S1024x1024.Idx) :
    (outsAt0 m c t.val t.isLt).2 y = 0 + ∑ s ∈ Finset.range (t.val % 4 + 1), M m c (4 * (t.val / 4) + s) y := by
  rw [Value.soutsAt0_0_eq m c t]
  refine Pipeline.accAt_add_apply (fun n h => Value.scAt0_0 m c n h (VS0_0.read (Elt Ideal) VS0_0.junk)) (Value.scAt0_0 m c)
    (fun _ => 0) (M m c) (4 * (t.val / 4)) 3 ?_ ?_ (t.val % 4) (by omega) _ y
  · intro h y
    have h0 : (4 * (t.val / 4)) % 4 = 0 := by omega
    have h1 : ¬(4 * (t.val / 4)) % 4 = 3 := by omega
    unfold Value.scAt0_0
    rw [dif_pos h0, dif_neg h1, Found.scratch_first]
    refine (step_at m c ⟨4 * (t.val / 4), h⟩ (k0_pay1 (F := Ideal)) y).trans ?_
    exact congrArg (· + M m c (4 * (t.val / 4)) y) (Payload.reset_apply y)
  · intro n h acc y hb he
    have h0 : ¬n % 4 = 0 := by omega
    unfold Value.scAt0_0
    rw [dif_neg h0]
    by_cases h1 : n % 4 = 3
    · rw [dif_pos h1, Found.scratch_last]
      exact step_at m c ⟨n, h⟩ acc y
    · rw [dif_neg h1, Found.scratch_mid]
      exact step_at m c ⟨n, h⟩ acc y

/-- A run's last point writes back the scratch it leaves plus the bias row. -/
theorem flushed_last (c : Dev nD) (t : Fin cfg0.N) (h0 : ¬t.val % 4 = 0) (h1 : t.val % 4 = 3) :
    (dats m 0 c).flushed 3 t
      = (cfg0.win 3).cut (grid0.coords t) (k0_pay3 (iblk m c 2 t) ((outsAt0 m c t.val t.isLt).2)) := by
  rw [Value.flushed3_C m c t h0 h1, Found.out_last, outsAt0_C m c t h0 h1]
  dsimp only
  rw [Found.scratch_last]

/-- An entry of the output block at `t` sits in the array at its row block's and column block's offsets. -/
theorem out_emb (t : Fin cfg0.N) (p q : Fin 1024) :
    ((cfg0.win 3).blk t).view.emb (ix2 p q)
      = ix2 (⟨1024 * (t.val / 16) + p.val, by have := Blocks.lt32 t; omega⟩ : Fin 2048)
          (⟨1024 * (t.val / 4 % 4) + q.val, by omega⟩ : Fin 4096) := by
  refine funext fun a => Fin.ext ?_
  match a with
  | ⟨0, _⟩ => show win0_3.index t 0 * 1024 + 1 * p.val = 1024 * (t.val / 16) + p.val; rw [(Blocks.out_index t).1]; omega
  | ⟨1, _⟩ => show win0_3.index t 1 * 1024 + 1 * q.val = 1024 * (t.val / 4 % 4) + q.val; rw [(Blocks.out_index t).2]; omega

/-- The bias block at `t`, entry `(0, q)`, is the bias at the column block's offset. -/
theorem bias_at (c : Dev nD) (t : Fin cfg0.N) (q : Fin 1024) :
    (iblk m c 2 t : Vec Ideal S1x1024 .f32) (ix2 (0 : Fin 1) q)
      = biasv m c (ix1 (⟨1024 * (t.val / 4 % 4) + q.val, by omega⟩ : Fin 4096)) := by
  rw [Blocks.bias_block, Blocks.bias_row_eq]
  exact shapeCast_a_1a_apply _ shapeCasts_S4096_S1x4096 (0 : Fin 1) _

/-- WHAT A FLUSHING POINT WRITES BACK is its block of the result. -/
theorem flushed_eq (c : Dev nD) (t : Fin cfg0.N) (hf : (cfg0.win 3).flush t = true) :
    (dats m 0 c).flushed 3 t
      = ((cfg0.win 3).blk t).view.read (Elt Ideal) (result (acts m c) (wts m c) (biasv m c)) := by
  have h1 : t.val % 4 = 3 := (flush0_3 t).mp hf
  have h0 : ¬t.val % 4 = 0 := by omega
  rw [flushed_last m c t h0 h1]
  funext y
  obtain ⟨p, q, rfl⟩ : ∃ (p q : Fin 1024), y = ix2 p q := ⟨y 0, y 1, eq_ix2 y⟩
  show k0_pay3 (iblk m c 2 t) ((outsAt0 m c t.val t.isLt).2) (ix2 p q)
    = result (acts m c) (wts m c) (biasv m c) (((cfg0.win 3).blk t).view.emb (ix2 p q))
  rw [out_emb t p q]
  refine (Payload.final_apply (iblk m c 2 t) ((outsAt0 m c t.val t.isLt).2) p q).trans ?_
  rw [scratch_after m c t (ix2 p q), bias_at m c t q, h1, zero_add]
  show ∑ s ∈ Finset.range 4, addend (acts m c) (wts m c) (4 * (t.val / 4) + s) p q + _ = entry _ _ _ _ _
  rw [sum_addends _ _ t.val (Blocks.lt32 t) p q, entry_eq_shares]

/-- An index of the array is in point `t`'s block iff each coordinate is in the block's range on its axis. -/
theorem mem_blk (t : Fin cfg0.N) (i : S2048x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the array is in the block of a flushing point: its row block's and column block's last point. -/
theorem cover (i : S2048x4096.Idx) :
    ∃ t : Fin cfg0.N, (cfg0.win 3).flush t = true ∧ i ∈ ((cfg0.win 3).blk t).view.set := by
  have hi0 : (i 0).val < 2048 := idx2_lt0 i
  have hi1 : (i 1).val < 4096 := idx2_lt1 i
  have hN : cfg0.N = 32 := N_0
  refine ⟨⟨16 * ((i 0).val / 1024) + 4 * ((i 1).val / 1024) + 3, by rw [hN]; omega⟩, ?_, ?_⟩
  · exact (flush0_3 _).mpr (by show (16 * ((i 0).val / 1024) + 4 * ((i 1).val / 1024) + 3) % 4 = 3; omega)
  · rw [mem_blk]
    intro a
    match a with
    | ⟨0, _⟩ =>
      show win0_3.index _ 0 * 1024 ≤ (i 0).val ∧ (i 0).val < win0_3.index _ 0 * 1024 + 1024
      rw [(Blocks.out_index _).1]
      show (16 * ((i 0).val / 1024) + 4 * ((i 1).val / 1024) + 3) / 16 * 1024 ≤ (i 0).val ∧ (i 0).val < (16 * ((i 0).val / 1024) + 4 * ((i 1).val / 1024) + 3) / 16 * 1024 + 1024
      omega
    | ⟨1, _⟩ =>
      show win0_3.index _ 1 * 1024 ≤ (i 1).val ∧ (i 1).val < win0_3.index _ 1 * 1024 + 1024
      rw [(Blocks.out_index _).2]
      show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
      omega

/-- THE ARRAY after the run. -/
theorem final (c : Dev nD) : (dats m 0 c).arrAt 3 cfg0.N = result (acts m c) (wts m c) (biasv m c) :=
  (dats m 0 c).arrAt_eq_of_cover 3 (result (acts m c) (wts m c) (biasv m c)) (flushed_eq m c) cover

/-- The kernel's run: the result array at `Spec.result`, the arguments unchanged. -/
theorem run : θ_run defs (onTc (τ := τ) (main (F := Ideal))) ⟨m, fun _ => 0, ρ⟩ fun r => ∀ c : Dev nD,
      r.2.mem ((c : Thread nD τ).loc main_v9) = result (acts m c) (wts m c) (biasv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Acc

end
-- ==== Proof.RefValue.lean ====
/-
  The reference's result, index by index: a plain inner product over all 4096 terms of the activations' row with the
  gathered weights' column, plus the bias of that column (broadcast first to a row, then down the rows).
  So it is `Spec.result` of the activations, the reference's gathered weights and the bias.
-/
import proofs.«120063_j59923383714208_2_alg».proof.Proof.Gen.ReferenceIdeal.Read
import proofs.«120063_j59923383714208_2_alg».proof.Proof.Spec

noncomputable section

open Idealize.ShloMosaic Idealize.ShloMosaic.ValueIdx

namespace Cert.ReferenceIdeal.RefValue

open Cert.ReferenceIdeal Cert.ReferenceIdeal.Read Cert.Spec

/-- The reference's last stage is the specification's result. -/
theorem result_eq (x0 : (⟨S2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v10 (F := Ideal) x0 x1 x2 x3 = result x0 (val_main_v6 (F := Ideal) x1 x2) x3 := by
  funext i
  have el : ∀ k : Fin 4096, lidx_main_v7 i k = ix2 (⟨(i 0).val, idx2_lt0 i⟩ : Fin 2048) k := fun k =>
    funext fun a => Fin.ext (by match a with | ⟨0, _⟩ => rfl | ⟨1, _⟩ => rfl)
  have er : ∀ k : Fin 4096, ridx_main_v7 i k = ix2 k (⟨(i 1).val, idx2_lt1 i⟩ : Fin 4096) := fun k =>
    funext fun a => Fin.ext (by match a with | ⟨0, _⟩ => rfl | ⟨1, _⟩ => rfl)
  have eb : idx_main_v8 (idx_main_v9 i) = ix1 (⟨(i 1).val, idx2_lt1 i⟩ : Fin 4096) :=
    funext fun a => Fin.ext (by match a with | ⟨0, _⟩ => rfl)
  rw [val_main_v10_apply, val_main_v7_apply, val_main_v9_apply, val_main_v8_apply]
  simp only [el, er, eb]
  rfl

end Cert.ReferenceIdeal.RefValue

end
-- ==== Proof.lean ====
/-
  The kernel computes `inputs @ W + bias` with `W = mean[indices]` a 4096 × 4096 table look-up: the look-up runs on the
  host (from the table rounded to bf16), and a (2, 4, 4)-grid kernel multiplies 1024 × 1024 blocks, summing the four
  blocks of the contracted axis into a scratch block that starts from zero, and adds the bias when it writes a block out.
  The reference gathers `W` from the unrounded table, takes one inner product over all 4096 terms, and adds the bias.

  Over the extended reals rounding is the identity, so both gathers are one array `W`, and both programs end with

      out (r, col) = (∑ l < 4096, inputs (r, l) · W (l, col)) + bias (col):

  the reference directly; the kernel as `(0 + s₀ + s₁ + s₂ + s₃) + bias`, `sₖ` the part of the inner product over
  `l ∈ [1024 k, 1024 k + 1024)`. The two agree because a sum over 4096 terms is the sum of its four consecutive blocks
  of 1024 — associativity and commutativity of addition only, which hold at the infinities as well; the precondition
  that the inputs are finite is not used.

  Modules: BlockSum (the splitting of the sum), Spec (the function `out`, its shares, a grid point's addend), Pieces (what
  each control case of the body leaves in the scratch and the output block), Payload (the body's stored values at an
  index), Blocks (a window's block as a slice of its array; the host-written weights and bias row), Accum (the scratch
  as a running sum, the block a last point writes back, the cover, the kernel's run), RefValue (the reference's result
  at an index). The kernel programs' frames are the generated ones; the reference's is its generated run.
-/
import proofs.«120063_j59923383714208_2_alg».proof.Defs
import proofs.«120063_j59923383714208_2_alg».proof.Proof.Gen.Kernel
import proofs.«120063_j59923383714208_2_alg».proof.Proof.Gen.Kernel.Frame
import proofs.«120063_j59923383714208_2_alg».proof.Proof.Gen.KernelIdeal
import proofs.«120063_j59923383714208_2_alg».proof.Proof.Gen.KernelIdeal.Frame
import proofs.«120063_j59923383714208_2_alg».proof.Proof.Gen.KernelIdeal.Value
import proofs.«120063_j59923383714208_2_alg».proof.Proof.Gen.ReferenceIdeal
import proofs.«120063_j59923383714208_2_alg».proof.Proof.Gen.ReferenceIdeal.Run
import proofs.«120063_j59923383714208_2_alg».proof.Proof.Gen.ReferenceIdeal.Read
import proofs.«120063_j59923383714208_2_alg».proof.Proof.Gen.Pre_finite_inputs
import proofs.«120063_j59923383714208_2_alg».proof.Proof.Accum
import proofs.«120063_j59923383714208_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The weights the kernel's host code gathers are the reference's: the same look-up by the same normalised indices,
    from a table that rounding to bf16 leaves as it is. -/
theorem weights_agree (m : (ℓ : Loc Cert.KernelIdeal.nD Cert.KernelIdeal.τ Cert.KernelIdeal.sig) → Buf (Elt Ideal) ℓ)
    (c : Dev Cert.KernelIdeal.nD) :
    Cert.KernelIdeal.Acc.wts m c
      = Cert.ReferenceIdeal.Read.val_main_v6 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  (Cert.KernelIdeal.Blocks.weights_eq m c).trans rfl

/-- Both programs end with `Spec.result` of the activations, the gathered weights and the bias, of arguments that agree. -/
theorem algebraic : Cert.algebraic_KernelIdeal_ReferenceIdeal := by
  intro m ρ m' ρ' _ hagree
  refine ⟨fun c => Cert.Spec.result (Cert.KernelIdeal.Acc.acts m c) (Cert.KernelIdeal.Acc.wts m c) (Cert.KernelIdeal.Acc.biasv m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine ((Cert.ReferenceIdeal.Read.val_main_v10_eq _ _ _ _).trans (Cert.ReferenceIdeal.RefValue.result_eq _ _ _ _)).trans ?_
  show Cert.Spec.result _ _ _
    = Cert.Spec.result (Cert.KernelIdeal.Acc.acts m c) (Cert.KernelIdeal.Acc.wts m c) (Cert.KernelIdeal.Acc.biasv m c)
  rw [weights_agree m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
